-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn_part1 {F : FTy → Type} [FloatOps F] (main_arg4 : FVec F S65536x256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S65536x256 .f32 := Host.absf main_arg4
  let main_cst_6 : FVec F S_ .f32 := constant S_ .f32 0x7F800000#32
  let main_v20 : FVec F S65536x256 .f32 := broadcastInDim S65536x256 ![] bcast_S_S65536x256 main_cst_6
  let main_v21 : IVec S65536x256 1 := cmpf .olt main_v19 main_v20
  let main_c_7 : IVec S_ 1 := constantI S_ 1 1#1
  let main_v22 : IVec S_ 1 := (fun x v => Host.reduce IntOp.andi x v reducesTo_S65536x256_S_d0_1 h_S_) main_v21 main_c_7
  let main_v23 : IVec S_ 1 := andi main_v18 main_v22
  main_v23

def fn {F : FTy → Type} [FloatOps F] (main_arg0 : FVec F S65536x256 .f32) (main_arg1 : FVec F S65536x256 .f32) (main_arg2 : FVec F S65536x256 .f32) (main_arg3 : FVec F S65536x256 .f32) (main_arg4 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_v13 main_v16
-- ==== Kernel.lean ====
abbrev S65536x256 : Shape := ⟨2, ![65536, 256]⟩
abbrev S1x1 : Shape := ⟨2, ![1, 1]⟩
abbrev S2048x256 : Shape := ⟨2, ![2048, 256]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 7
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S65536x256, .f32⟩
  | .hbm, ⟨5, _⟩ => ⟨S1x1, .f32⟩
  | .hbm, ⟨6, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S1x1, .f32⟩
  | .local _ .vmem, ⟨11, _⟩ => ⟨S1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v46 : BitVec 1 := Scalar.cmpi .eq arg0 c31_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S65536x256.size a
  hwx0_4 : ∀ i : grid0.Coords, EltTy.bits .f32 = 32 ∨ (Rect.block (s := S65536x256) S2048x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S65536x256 : Shape := ⟨2, ![65536, 256]⟩
abbrev S_ : Shape := ⟨0, ![]⟩
abbrev S65536 : Shape := ⟨1, ![65536]⟩

abbrev nBuf : Space → Nat
  | .hbm => 48
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S65536x256, .f32⟩
  | .hbm, ⟨5, _⟩ => ⟨S_, .f32⟩
  | .hbm, ⟨6, _⟩ => ⟨S65536x256, .i1⟩
  | .hbm, ⟨7, _⟩ => ⟨S_, .f32⟩
  | .hbm, ⟨8, _⟩ => ⟨S65536x256, .f32⟩
  | .hbm, ⟨9, _⟩ => ⟨S65536x256, .f32⟩
  | .hbm, ⟨10, _⟩ => ⟨S_, .f32⟩
  | .hbm, ⟨11, _⟩ => ⟨S65536x256, .f32⟩
  | .hbm, ⟨12, _⟩ => ⟨S65536x256, .i1⟩
  | .hbm, ⟨13, _⟩ => ⟨S_, .f32⟩
  | .hbm, ⟨14, _⟩ => ⟨S65536x256, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .i1⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S_, .f32⟩
  | .hbm, ⟨28, _⟩ => ⟨S65536, .f32⟩
  | .hbm, ⟨29, _⟩ => ⟨S65536x256, .f32⟩
  | .hbm, ⟨30, _⟩ => ⟨S_, .f32⟩
  | .hbm, ⟨31, _⟩ => ⟨S65536, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536, .f32⟩
  | .hbm, ⟨36, _⟩ => ⟨S_, .f32⟩
  | .hbm, ⟨37, _⟩ => ⟨S65536, .f32⟩
  | .hbm, ⟨38, _⟩ => ⟨S65536, .f32⟩
  | .hbm, ⟨39, _⟩ => ⟨S65536, .f32⟩
  | .hbm, ⟨40, _⟩ => ⟨S65536, .f32⟩
  | .hbm, ⟨41, _⟩ => ⟨S_, .f32⟩
  | .hbm, ⟨42, _⟩ => ⟨S65536, .f32⟩
  | .hbm, ⟨43, _⟩ => ⟨S65536, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_call0_call0_v0 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_call1_v0 : Ref sig .tc := ⟨.hbm, 14, rfl⟩
abbrev main_call0_v5 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_call0_cst_2 : Ref sig .tc := ⟨.hbm, 19, rfl⟩
abbrev main_call0_call2_v0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_cst_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_cst_5 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  reducesTo_S65536x256_S65536_d1 : S65536x256.ReducesTo [1] S65536
  h_S_ : 0 < S_.numel
  bcast_S_S65536 : S_.BroadcastsInDim S65536 (![] : Fin 0 → Fin S65536.rank)
  reducesTo_S65536_S_d0 : S65536.ReducesTo [0] S_

variable [Facts₀]

class Facts : Prop extends Facts₀ where

variable [Facts]
-- ==== Proof.KernelPieces.lean ====
/-
  What one run of the kernel body leaves behind, as values.

  The body keeps a 1 x 1 accumulator between grid points. At every point it adds to the accumulator the point's
  partial sum (a function `k0_pay1` of the point's row values `k0_pay4` and of the accumulator it loaded); at the first
  point the accumulator is first set to the zero word (`k0_pay3`); at the last point the accumulator, divided by the
  number of rows (`k0_pay2`), is stored into the 1 x 1 output block. Each statement below reads the stores the run
  found back as one value: a store through the whole 1 x 1 buffer leaves its payload, and a load through the whole
  buffer reads what is there.
-/
import proofs.«111889_j85968065397106_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a1 : Memref sig .tc .vmem S2048x256 .f32) (h1 : a1.IsWhole) (a2 : Memref sig .tc .vmem S2048x256 .f32) (h2 : a2.IsWhole)
  (a3 : Memref sig .tc .vmem S2048x256 .f32) (h3 : a3.IsWhole) (a4 : Memref sig .tc .vmem S2048x256 .f32) (h4 : a4.IsWhole)
  (a5 : Memref sig .tc .vmem S2048x256 .f32) (h5 : a5.IsWhole) (a6 : Memref sig .tc .vmem S1x1 .f32) (h6 : a6.IsWhole)
  (a7 : Memref sig .tc .vmem S1x1 .f32) (h7 : a7.IsWhole)
  (x0 x1 x2 x3 x4 : Vec F S2048x256 .f32) (xs0 : Vec F S1x1 .f32)

/-- A middle point: the accumulator `xs0` it found, plus the point's partial sum. -/
theorem acc_mid (hc0 : ¬cond0_0 i) (hc1 : ¬cond0_1 i) :
    sout0_B_0 c i a1 h1 a2 h2 a3 h3 a4 h4 a5 h5 a6 h6 a7 h7 hc0 hc1 x0 x1 x2 x3 x4 xs0
      = k0_pay1 (k0_pay4 x0 x1 x2 x3 x4) xs0 := by
  unfold sout0_B_0
  rw [View.read_writes_eq_canon _ _ _ (scover0_B_0 c i a1 h1 a2 h2 a3 h3 a4 h4 a5 h5 a6 h6 a7 h7 hc0 hc1 x0 x1 x2 x3 x4 xs0)]
  unfold kernelRun0_B
  dsimp only
  sl_unfold_words
  rw [View.canon_unit_zero hz]
  simp only [View.readAt_eq_ld, h1.read_unread, h2.read_unread, h3.read_unread, h4.read_unread, h5.read_unread,
    h7.read_unread, View.ld_unit_zero (S := S2048x256) hz, View.ld_unit_zero (S := S1x1) hz]

/-- The last point leaves the accumulator the same way: what it found plus the point's partial sum. -/
theorem acc_last (hc0 : ¬cond0_0 i) (hc1 : cond0_1 i) :
    sout0_C_0 c i a1 h1 a2 h2 a3 h3 a4 h4 a5 h5 a6 h6 a7 h7 hc0 hc1 x0 x1 x2 x3 x4 xs0
      = k0_pay1 (k0_pay4 x0 x1 x2 x3 x4) xs0 := by
  unfold sout0_C_0
  rw [View.read_writes_eq_canon _ _ _ (scover0_C_0 c i a1 h1 a2 h2 a3 h3 a4 h4 a5 h5 a6 h6 a7 h7 hc0 hc1 x0 x1 x2 x3 x4 xs0)]
  unfold kernelRun0_C
  dsimp only
  sl_unfold_words
  rw [View.canon_unit_zero hz]
  simp only [View.readAt_eq_ld, h1.read_unread, h2.read_unread, h3.read_unread, h4.read_unread, h5.read_unread,
    h7.read_unread, View.ld_unit_zero (S := S2048x256) hz, View.ld_unit_zero (S := S1x1) hz]

/-- The last point's output block: the accumulator it has just stored, divided by the number of rows. -/
theorem out_last (hc0 : ¬cond0_0 i) (hc1 : cond0_1 i) :
    out0_C_5 c i a1 h1 a2 h2 a3 h3 a4 h4 a5 h5 a6 h6 a7 h7 hc0 hc1 x0 x1 x2 x3 x4 xs0
      = k0_pay2 (k0_pay1 (k0_pay4 x0 x1 x2 x3 x4) xs0) := by
  unfold out0_C_5
  rw [View.read_writes_eq_canon _ _ _ (cover0_C_5 c i a1 h1 a2 h2 a3 h3 a4 h4 a5 h5 a6 h6 a7 h7 hc0 hc1 x0 x1 x2 x3 x4 xs0)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h5.read_unread,
    h7.read_unread, View.ld_unit_zero (S := S2048x256) hz, View.ld_unit_zero (S := S1x1) hz]

/-- The first point: the accumulator is set to the zero word, read back, and the point's partial sum added. -/
theorem acc_first (hc0 : cond0_0 i) (hc1 : ¬cond0_1 i) :
    sout0_A_0 c i a1 h1 a2 h2 a3 h3 a4 h4 a5 h5 a6 h6 a7 h7 hc0 hc1 x0 x1 x2 x3 x4
      = k0_pay1 (k0_pay4 x0 x1 x2 x3 x4) (k0_pay3 (F := F)) := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h7.read_unread, View.ld_unit_zero (S := S2048x256) hz, View.ld_unit_zero (S := S1x1) hz]

end Cert.KernelIdeal.Pieces

end
-- ==== Proof.KernelFold.lean ====
/-
  The accumulator after each grid point, in closed form.

  Write rows t for the 2048 row values the body computes from the five input blocks of grid point t. The accumulator
  after point 0 is the point's partial sum added to the zero word; after point n + 1 it is point n + 1's partial sum
  added to the accumulator after point n. By induction on the point this recursion is what the generated
  point-by-point contents hold, and the block written back at the last point (point 31) is the last accumulator
  divided by the number of rows.
-/
import proofs.«111889_j85968065397106_1_alg».proof.Proof.KernelPieces

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.KernelIdeal.Pieces

variable {F : FTy → Type} [FloatOps F]
variable (m : (ℓ : Loc nD τ sig) → Buf (Elt F) ℓ)

/-- The row values of grid point `t`: the body's row computation on the point's five input blocks. -/
def rows (c : Dev nD) (t : Fin cfg0.N) : FVec F S2048x1 .f32 :=
  k0_pay4 (iblk m c 0 t) (iblk m c 1 t) (iblk m c 2 t) (iblk m c 3 t) (iblk m c 4 t)

/-- The accumulator after point `n`. -/
def acc (c : Dev nD) : (n : ℕ) → n < cfg0.N → Vec F S1x1 .f32
  | 0, h => k0_pay1 (rows m c ⟨0, h⟩) (k0_pay3 (F := F))
  | n + 1, h => k0_pay1 (rows m c ⟨n + 1, h⟩) (acc c n (Nat.lt_of_succ_lt h))

/-- The carried scratch after point `n` is that accumulator: by induction on the point. -/
theorem scratch_eq (c : Dev nD) : ∀ (n : ℕ) (h : n < cfg0.N), (outsAt0 m c n h).2 = acc m c n h
  | 0, h => by
    rw [outsAt0_A m c ⟨0, h⟩ rfl (by show ¬(0 % 32 = 31); decide)]
    dsimp only
    rw [acc_first]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [acc_last]
      show k0_pay1 _ (outsAt0 m c n _).2 = k0_pay1 _ (acc m c n _)
      rw [scratch_eq c n]
      rfl
    · rw [outsAt0_B m c ⟨n + 1, h⟩ h0 h1]
      dsimp only
      rw [acc_mid]
      show k0_pay1 _ (outsAt0 m c n _).2 = k0_pay1 _ (acc m c n _)
      rw [scratch_eq c n]
      rfl

/-- The output block the last point leaves: the last accumulator divided by the number of rows. -/
theorem out_eq (c : Dev nD) (h : 31 < cfg0.N) : (outsAt0 m c 31 h).1 = k0_pay2 (acc m c 31 h) := by
  rw [outsAt0_C m c ⟨31, h⟩ (by show ¬(31 % 32 = 0); decide) (by show 31 % 32 = 31; rfl)]
  dsimp only
  rw [out_last]
  show k0_pay2 (k0_pay1 _ (outsAt0 m c 30 _).2) = k0_pay2 (k0_pay1 _ (acc m c 30 _))
  rw [scratch_eq m c 30]
  rfl

end Cert.KernelIdeal.Fold

end
-- ==== Proof.Spec.lean ====
/-
  The quantity both programs compute, as one function of the five argument arrays over the extended reals.

  For two diagonal Gaussians with means mu1, mu2 and diagonal covariances s1, s2 (all of shape 65536 x 256) and a
  mask, row r contributes
      kl r = 1/2 * ( sum_j (log s2 - log s1)  -  256  +  sum_j s1 / s2  +  sum_j (mask * (mu2 - clip mu1))^2 / s2 ),
  the sums over the 256 entries of the row, and the result is the mean of kl over the 65536 rows: their sum
  divided by 65536. clip is jnp.nan_to_num read on the extended reals: there is no NaN to replace, +inf becomes the
  largest finite f32 and -inf the smallest. The float literals are kept as the words both programs spell.
-/
import Idealize.ShloMosaic.PureOps.Ideal
import Idealize.ShloMosaic.PureOps.Ideal.Laws
import Idealize.ShloMosaic.Lib.ValueIdx

noncomputable section

open scoped BigOperators

namespace Cert.KlSpec

open Idealize.ShloMosaic Idealize.ShloMosaic.ValueIdx

/-- An argument array: 65536 rows of 256 extended reals. -/
abbrev Arr : Type := (⟨2, ![65536, 256]⟩ : Shape).Idx → EReal

/-- First stage of nan_to_num: an entry that differs from itself would become 0 (no entry does). -/
def clipNan (x : EReal) : EReal :=
  Scalar.select (Ideal.cmp .une x x) (Ideal.ofBits .f32 0x00000000#32) x

/-- Second stage: +inf becomes the largest finite f32. -/
def clipTop (x : EReal) : EReal :=
  Scalar.select (Ideal.cmp .oeq (clipNan x) (Ideal.ofBits .f32 0x7F800000#32)) (Ideal.ofBits .f32 0x7F7FFFFF#32) (clipNan x)

/-- nan_to_num on the extended reals: after the two stages above, -inf becomes the smallest finite f32. -/
def clip (x : EReal) : EReal :=
  Scalar.select (Ideal.cmp .oeq (clipTop x) (Ideal.ofBits .f32 0xFF800000#32)) (Ideal.ofBits .f32 0xFF7FFFFF#32) (clipTop x)

/-- log s2 - log s1, one entry of the log-determinant ratio. -/
def logRatio (s1 s2 : EReal) : EReal := Ideal.log s2 - Ideal.log s1

/-- The masked difference of the means, mask * (mu2 - clip mu1). -/
def wdiff (mu1 mu2 mk : EReal) : EReal := mk * (mu2 - clip mu1)

/-- One entry of the quadratic form: the masked difference squared over s2. -/
def quad (mu1 mu2 s2 mk : EReal) : EReal := Ideal.div (wdiff mu1 mu2 mk * wdiff mu1 mu2 mk) s2

/-- Row r's divergence: half of (log-determinant ratio - 256 + trace term + quadratic form). -/
def rowKl (mu1 mu2 s1 s2 mk : Arr) (r : Fin 65536) : EReal :=
  Ideal.ofBits .f32 0x3F000000#32 *
    ((((∑ j : Fin 256, logRatio (s1 (ix2 r j)) (s2 (ix2 r j))) - Ideal.ofBits .f32 0x43800000#32)
      + ∑ j : Fin 256, Ideal.div (s1 (ix2 r j)) (s2 (ix2 r j)))
      + ∑ j : Fin 256, quad (mu1 (ix2 r j)) (mu2 (ix2 r j)) (s2 (ix2 r j)) (mk (ix2 r j)))

/-- The mean over the 65536 rows: the sum of the rows' divergences divided by 65536. -/
def meanKl (mu1 mu2 s1 s2 mk : Arr) : EReal :=
  Ideal.div (∑ r : Fin 65536, rowKl mu1 mu2 s1 s2 mk r) (Ideal.ofBits .f32 0x47800000#32)

end Cert.KlSpec

end
-- ==== Proof.LibRowMax.lean ====
/-
  Row maxima of a matrix, at the exact (extended-real) reading of the float operations.

  The lane reduction by maximum along the columns of an `a × b` matrix, started from a given word, has at row `p` the fold
  of `max` from that word's value over the row's `b` entries (`rowMax_lane_apply`). Also here: the words a printed
  maximum and a printed sum start from (the word of −∞, the word of +0.0) are the neutral words of those reductions,
  stated as equations of the exact form a reduction's side condition has, so that a term built with them is rewritten
  by lemmas about reductions without unfolding anything (`maxAcc`, `addAcc`).
-/
import Idealize.ShloMosaic.PureOps.Ideal.Laws
import Idealize.ShloMosaic.Lib.ValueIdx

noncomputable section

namespace Cert.RowMax

open Idealize.ShloMosaic Idealize.ShloMosaic.ValueIdx

/-- The word a row maximum starts from (that of −∞) is the neutral word of a maximum at f32. -/
theorem maxAcc : (0xFF800000#32 : BitVec 32) = FKind.maximumf.neutral .f32 (.inl rfl) := rfl

/-- The word a row sum starts from (that of +0.0) is the neutral word of a sum at f32. -/
theorem addAcc : (0x00000000#32 : BitVec 32) = FKind.add.neutral .f32 (.inl rfl) := rfl

/-- The maximum of each row of a matrix as the lane reduction gives it: at row `p` the fold of max, from the value of the
    starting word, over that row's entries. -/
theorem rowMax_lane_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  have e : (src ∘ h.lift (ix1 p)) = fun k : Fin b => src (ix2 p k) := funext fun k => congrArg src (funext fun ax => Fin.ext (by
    match ax with
    | ⟨0, _⟩ => rfl
    | ⟨1, _⟩ => rfl))
  rw [e]
  rfl

end Cert.RowMax

end
-- ==== Proof.LibKeepdims.lean ====
/-
  KEEPDIMS COLUMNS AND THE LANE SOFTMAX, read at an index at the ideal values.

  A per-row number `[a]` kept as a column `[a, 1]` and spread over `b` columns reads, at `(p, c)`, the number of row `p`
  (`shapeCast_col_apply`, `broadcastTo_col_apply`); a lane sum along the columns is the sum over the row (`rowSum_apply`; the
  row maximum as a fold of max is the row-maximum module's). With the row maximum and the row sum taken by lane reductions, the
  softmax a kernel body spells as `exp (S − max) / sum (exp (S − max))` over an `a × b` matrix `S` is, at `(r, j)`,
  the exponential of `S r j` minus the fold of max over row `r`, divided by the sum over the row of those exponentials
  (`laneSoftmax_apply`). Every lemma holds for all extents.
-/
import Idealize.ShloMosaic.PureOps.Ideal
import Idealize.ShloMosaic.PureOps.Ideal.Laws
import Idealize.ShloMosaic.Lib.ValueIdx
import Idealize.ShloMosaic.Lib.Pipeline.Value
import proofs.«111889_j85968065397106_1_alg».proof.Proof.LibRowMax

noncomputable section

open scoped BigOperators

namespace Cert.Keepdims

open Idealize.ShloMosaic Idealize.ShloMosaic.ValueIdx

variable {α : Type}

/-- A vector `[a]` cast to a column `[a, 1]` reads, at `(i, u)`, the vector at `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry of row `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane reduction by sum along the columns, at row `p`: the sum over the row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  have e : (fun k => src (h.lift (ix1 p) k)) = fun k : Fin b => src (ix2 p k) := funext fun k => congrArg src (funext fun ax => Fin.ext (by
    match ax with
    | ⟨0, _⟩ => rfl
    | ⟨1, _⟩ => rfl))
  exact congrArg (fun f : Fin b → EReal => ∑ k : Fin b, f k) e

/-- THE LANE SOFTMAX at `(r, j)`: with `M` the fold of max over row `r` from the starting word's value,
    `exp (S r j − M)` divided by the sum over the row of `exp (S r k − M)`. -/
theorem laneSoftmax_apply {a b : ℕ} (S : FVec Ideal ⟨2, ![a, b]⟩ .f32) (accm acca : BitVec 32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ hφ' : FKind.Formats .f32)
    (hm : accm = FKind.maximumf.neutral .f32 hφ) (ha : acca = FKind.add.neutral .f32 hφ') (r : Fin a) (j : Fin b) :
    divf (exp (subf S (broadcastTo ⟨2, ![a, b]⟩ (shapeCast ⟨2, ![a, 1]⟩ (multiReduction .maximumf [1] ⟨1, ![a]⟩ S accm hr hφ hm) hc) hb)))
        (broadcastTo ⟨2, ![a, b]⟩ (shapeCast ⟨2, ![a, 1]⟩ (multiReduction .add [1] ⟨1, ![a]⟩
          (exp (subf S (broadcastTo ⟨2, ![a, b]⟩ (shapeCast ⟨2, ![a, 1]⟩ (multiReduction .maximumf [1] ⟨1, ![a]⟩ S accm hr hφ hm) hc) hb)))
          acca hr hφ' ha) hc) hb) (ix2 r j)
      = Ideal.div (Ideal.exp (S (ix2 r j) - (Finset.univ : Finset (Fin b)).fold max (Ideal.ofBits .f32 accm) (fun k => S (ix2 r k))))
          (∑ k : Fin b, Ideal.exp (S (ix2 r k) - (Finset.univ : Finset (Fin b)).fold max (Ideal.ofBits .f32 accm) (fun k => S (ix2 r k)))) := by
  have hM : ∀ k : Fin b, broadcastTo ⟨2, ![a, b]⟩ (shapeCast ⟨2, ![a, 1]⟩ (multiReduction .maximumf [1] ⟨1, ![a]⟩ S accm hr hφ hm) hc) hb (ix2 r k)
      = (Finset.univ : Finset (Fin b)).fold max (Ideal.ofBits .f32 accm) (fun k => S (ix2 r k)) := fun k =>
    ((broadcastTo_col_apply _ hb r k).trans (shapeCast_col_apply _ hc r 0)).trans (Cert.RowMax.rowMax_lane_apply S accm hr hφ hm r)
  have hW : ∀ k : Fin b, exp (subf S (broadcastTo ⟨2, ![a, b]⟩ (shapeCast ⟨2, ![a, 1]⟩ (multiReduction .maximumf [1] ⟨1, ![a]⟩ S accm hr hφ hm) hc) hb)) (ix2 r k)
      = Ideal.exp (S (ix2 r k) - (Finset.univ : Finset (Fin b)).fold max (Ideal.ofBits .f32 accm) (fun k => S (ix2 r k))) := fun k =>
    congrArg (fun y => Ideal.exp (S (ix2 r k) - y)) (hM k)
  refine (divf_apply _ _ (ix2 r j)).trans ?_
  rw [hW j]
  refine congrArg (Ideal.div _) ?_
  refine ((broadcastTo_col_apply _ hb r j).trans (shapeCast_col_apply _ hc r 0)).trans ?_
  refine (rowSum_apply _ acca hr hφ' ha r).trans ?_
  exact Finset.sum_congr rfl fun k _ => hW k

end Cert.Keepdims

end
-- ==== Proof.LibSums.lean ====
/-
  GENERAL LEMMAS: float sums read at an index, at the ideal values (no program is imported).

  A host sum (a `stablehlo.reduce` with an add body) started from the zero word adds nothing but the entries: along the
  columns of an a x b array it is, at row p, the finite sum over the row's b entries (`hostRowSum_apply`); of a vector of
  a entries down to a single number it is the finite sum of the entries (`hostTotalSum_apply`, through `sum_idx1`: a sum
  over a one-axis index set is the sum over its coordinate). A kernel's reduction by sum along the rows of an a x 1
  column is, at its one index, the sum of the column's a entries (`colSum_apply`). Every lemma holds for all extents.
-/
import Idealize.ShloMosaic.PureOps.Ideal
import Idealize.ShloMosaic.PureOps.Ideal.Laws
import Idealize.ShloMosaic.Lib.ValueIdx

noncomputable section

open scoped BigOperators

namespace Cert.Sums

open Idealize.ShloMosaic Idealize.ShloMosaic.ValueIdx

/-! ## Sums over a one-axis index set -/

/-- A rank-1 index is its one coordinate. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-! ## The two host sums, from a zero initial value -/

/-- The host sum along the columns of an a × b array, started from zero, read at row p: the sum over the row. The
    initial value adds nothing, and the source index over row p with column k inserted is (p, k). -/
theorem hostRowSum_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (hz : init (Shape.Idx.first hu) = 0) (p : Fin a) :
    Host.reduceAdd x init h' hu (ix1 p) = ∑ k : Fin b, x (ix2 p k) := by
  show Ideal.hostReduceAdd h' x (init (Shape.Idx.first hu)) (ix1 p) = _
  rw [hz]
  refine (Ideal.hostReduceAdd_single h' h x 0 (ix1 p)).trans ?_
  rw [zero_add]
  have e : (fun k => x (h.lift (ix1 p) k)) = fun k : Fin b => x (ix2 p k) := funext fun k => congrArg x (funext fun ax => Fin.ext (by
    match ax with
    | ⟨0, _⟩ => rfl
    | ⟨1, _⟩ => rfl))
  exact congrArg (fun f : Fin b → EReal => ∑ k : Fin b, f k) e

/-- The host sum of a vector of a entries down to a single number, started from zero: the sum of the entries. -/
theorem hostTotalSum_apply {a : ℕ} (x : FVec Ideal ⟨1, ![a]⟩ .f32) (init : FVec Ideal ⟨0, ![]⟩ .f32)
    (h' : (⟨1, ![a]⟩ : Shape).ReducesTo [0] ⟨0, ![]⟩)
    (hu : 0 < (⟨0, ![]⟩ : Shape).numel) (hz : init (Shape.Idx.first hu) = 0) (j : (⟨0, ![]⟩ : Shape).Idx) :
    Host.reduceAdd x init h' hu j = ∑ k : Fin a, x (ix1 k) := by
  show Ideal.hostReduceAdd h' x (init (Shape.Idx.first hu)) j = _
  rw [hz]
  refine (Ideal.hostReduceAdd_total h' (fun b => b.elim0) x 0 j).trans ?_
  rw [zero_add]
  exact sum_idx1 x

/-! ## A kernel's sum along the rows of a column -/

/-- A reduction by sum along the rows of an `a x 1` column, at its one index: the sum of the column's entries. -/
theorem colSum_apply {a : ℕ} (src : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) :
    multiReduction .add [0] ⟨1, ![1]⟩ src acc h hφ hacc (ix1 (0 : Fin 1)) = ∑ k : Fin a, src (ix2 k (0 : Fin 1)) := by
  refine (Ideal.multiReduction_add_single src acc h hφ hacc (ix1 (0 : Fin 1))).trans ?_
  have e : (fun k => src (h.lift (ix1 (0 : Fin 1)) k)) = fun k : Fin a => src (ix2 k (0 : Fin 1)) :=
    funext fun k => congrArg src (funext fun ax => Fin.ext (by
      match ax with
      | ⟨0, _⟩ => rfl
      | ⟨1, _⟩ => rfl))
  exact congrArg (fun f : Fin a → EReal => ∑ k : Fin a, f k) e

end Cert.Sums

end
-- ==== Proof.KernelPayload.lean ====
/-
  The body's arithmetic read at an index, over the extended reals.

  Row r of a point's 2048 x 256 input blocks (x0 = mu1, x1 = mu2, x2 = s1, x3 = s2, x4 = mask) gives the row value
      sum_j (log s2 - log s1) - 256 + sum_j s1 / s2 + sum_j (mask * (mu2 - clip mu1))^2 / s2,
  each sum a lane reduction kept as a 2048 x 1 column; the point's partial sum adds, to the accumulator it loaded, the
  sum over the 2048 rows of one half of the row values (a reduction along the rows of that column); and the output
  block is the accumulator divided by 65536. The zero word is the extended real 0.
-/
import proofs.«111889_j85968065397106_1_alg».proof.Proof.Gen.KernelIdeal.Skeleton
import proofs.«111889_j85968065397106_1_alg».proof.Proof.Spec
import proofs.«111889_j85968065397106_1_alg».proof.Proof.LibKeepdims
import proofs.«111889_j85968065397106_1_alg».proof.Proof.LibSums
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.KlSpec

/-- The row values at row `r`. -/
theorem rows_apply (x0 x1 x2 x3 x4 : FVec Ideal S2048x256 .f32) (r : Fin 2048) :
    k0_pay4 (F := Ideal) x0 x1 x2 x3 x4 (ix2 r (0 : Fin 1))
      = (((∑ j : Fin 256, logRatio (x2 (ix2 r j)) (x3 (ix2 r j))) - Ideal.ofBits .f32 0x43800000#32)
          + ∑ j : Fin 256, Ideal.div (x2 (ix2 r j)) (x3 (ix2 r j)))
          + ∑ j : Fin 256, quad (x0 (ix2 r j)) (x1 (ix2 r j)) (x3 (ix2 r j)) (x4 (ix2 r j)) := by
  unfold k0_pay4
  dsimp only
  rw [addf_apply, addf_apply, subf_apply, broadcast_apply]
  refine congrArg₂ (· + ·) (congrArg₂ (· + ·) (congrArg (· - _) ?_) ?_) ?_
  · exact (Cert.Keepdims.shapeCast_col_apply _ _ r 0).trans
      ((Cert.Keepdims.rowSum_apply _ _ _ _ _ r).trans (Finset.sum_congr rfl fun j _ => rfl))
  · exact (Cert.Keepdims.shapeCast_col_apply _ _ r 0).trans
      ((Cert.Keepdims.rowSum_apply _ _ _ _ _ r).trans (Finset.sum_congr rfl fun j _ => rfl))
  · exact (Cert.Keepdims.shapeCast_col_apply _ _ r 0).trans
      ((Cert.Keepdims.rowSum_apply _ _ _ _ _ r).trans (Finset.sum_congr rfl fun j _ => rfl))

/-- The point's partial sum: the accumulator it loaded plus the sum over the rows of one half of the row values. -/
theorem partial_apply (v36 : FVec Ideal S2048x1 .f32) (v41 : Vec Ideal S1x1 .f32) :
    k0_pay1 (F := Ideal) v36 v41 (ix2 (0 : Fin 1) (0 : Fin 1))
      = v41 (ix2 (0 : Fin 1) (0 : Fin 1)) + ∑ r : Fin 2048, Ideal.ofBits .f32 0x3F000000#32 * v36 (ix2 r (0 : Fin 1)) := by
  unfold k0_pay1
  dsimp only
  rw [shapeCast_self, addf_apply]
  refine congrArg (v41 (ix2 (0 : Fin 1) (0 : Fin 1)) + ·) ?_
  exact (Cert.Keepdims.shapeCast_col_apply _ _ (0 : Fin 1) 0).trans
    ((Cert.Sums.colSum_apply _ _ _ _ _).trans (Finset.sum_congr rfl fun r _ => rfl))

/-- The output block: the accumulator divided by 65536. -/
theorem mean_apply (v49 : Vec Ideal S1x1 .f32) (y : S1x1.Idx) :
    k0_pay2 (F := Ideal) v49 y = Ideal.div (v49 y) (Ideal.ofBits .f32 0x47800000#32) := rfl

/-- The word the accumulator is reset to is 0. -/
theorem reset_apply (y : S1x1.Idx) : k0_pay3 (F := Ideal) y = 0 := by
  unfold k0_pay3
  rw [shapeCast_self, broadcast_apply]
  exact Ideal.ofBits_zero_f32

end Cert.KernelIdeal.Payload

end
-- ==== Proof.KernelBlocks.lean ====
/-
  The input blocks read at an index.

  Each of the five inputs is cut into 32 blocks of 2048 rows, block t of every input holding rows 2048 * t to
  2048 * t + 2047 and all 256 columns. So entry (r, j) of the block a grid point t sees is entry (2048 * t + r, j) of the
  argument array: the block's row index is the point's number, its column index is 0.
-/
import proofs.«111889_j85968065397106_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Row `r` of block `t` is row `2048 * t + r` of the array. -/
def rowOf (t : Fin cfg0.N) (r : Fin 2048) : Fin 65536 :=
  ⟨2048 * t.val + r.val, by have h1 := t.isLt; have hN : cfg0.N = 32 := N_0; have h2 := r.isLt; omega⟩

theorem rowOf_val (t : Fin cfg0.N) (r : Fin 2048) : (rowOf t r).val = 2048 * t.val + r.val := rfl

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = t.val ∧ win0_1.index t 1 = 0 :=
  (by decide +kernel : ∀ t : Fin grid0.N, win0_1.index t 0 = t.val ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = t.val ∧ win0_3.index t 1 = 0 :=
  (by decide +kernel : ∀ t : Fin grid0.N, win0_3.index t 0 = t.val ∧ win0_3.index t 1 = 0)

theorem index4 : ∀ t : Fin cfg0.N, win0_4.index t 0 = t.val ∧ win0_4.index t 1 = 0 :=
  (by decide +kernel : ∀ t : Fin grid0.N, win0_4.index t 0 = t.val ∧ win0_4.index t 1 = 0)

/-- Window 0's block at point `t`, at `(r, j)`: the array's entry at row `2048 * t + r`, column `j`. -/
theorem block0_apply (c : Dev nD) (t : Fin cfg0.N) (r : Fin 2048) (j : Fin 256) :
    (iblk m c 0 t : Vec F S2048x256 .f32) (ix2 r j) = m ((c : Thread nD τ).loc main_arg0) (ix2 (rowOf t r) j) := by
  unfold iblk
  rw [View.read_apply]
  show V m c main_arg0 _ = m ((c : Thread nD τ).loc main_arg0) _
  refine congrArg (V m c main_arg0) (funext fun a => Fin.ext ?_)
  match a with
  | ⟨0, _⟩ =>
    show win0_0.index t 0 * 2048 + 1 * r.val = 2048 * t.val + r.val
    rw [(index0 t).1]; omega
  | ⟨1, _⟩ =>
    show win0_0.index t 1 * 256 + 1 * j.val = j.val
    rw [(index0 t).2]; omega

/-- Window 1's block at point `t`, at `(r, j)`: the array's entry at row `2048 * t + r`, column `j`. -/
theorem block1_apply (c : Dev nD) (t : Fin cfg0.N) (r : Fin 2048) (j : Fin 256) :
    (iblk m c 1 t : Vec F S2048x256 .f32) (ix2 r j) = m ((c : Thread nD τ).loc main_arg1) (ix2 (rowOf t r) j) := by
  unfold iblk
  rw [View.read_apply]
  show V m c main_arg1 _ = m ((c : Thread nD τ).loc main_arg1) _
  refine congrArg (V m c main_arg1) (funext fun a => Fin.ext ?_)
  match a with
  | ⟨0, _⟩ =>
    show win0_1.index t 0 * 2048 + 1 * r.val = 2048 * t.val + r.val
    rw [(index1 t).1]; omega
  | ⟨1, _⟩ =>
    show win0_1.index t 1 * 256 + 1 * j.val = j.val
    rw [(index1 t).2]; omega

/-- Window 2's block at point `t`, at `(r, j)`: the array's entry at row `2048 * t + r`, column `j`. -/
theorem block2_apply (c : Dev nD) (t : Fin cfg0.N) (r : Fin 2048) (j : Fin 256) :
    (iblk m c 2 t : Vec F S2048x256 .f32) (ix2 r j) = m ((c : Thread nD τ).loc main_arg2) (ix2 (rowOf t r) j) := by
  unfold iblk
  rw [View.read_apply]
  show V m c main_arg2 _ = m ((c : Thread nD τ).loc main_arg2) _
  refine congrArg (V m c main_arg2) (funext fun a => Fin.ext ?_)
  match a with
  | ⟨0, _⟩ =>
    show win0_2.index t 0 * 2048 + 1 * r.val = 2048 * t.val + r.val
    rw [(index2 t).1]; omega
  | ⟨1, _⟩ =>
    show win0_2.index t 1 * 256 + 1 * j.val = j.val
    rw [(index2 t).2]; omega

/-- Window 3's block at point `t`, at `(r, j)`: the array's entry at row `2048 * t + r`, column `j`. -/
theorem block3_apply (c : Dev nD) (t : Fin cfg0.N) (r : Fin 2048) (j : Fin 256) :
    (iblk m c 3 t : Vec F S2048x256 .f32) (ix2 r j) = m ((c : Thread nD τ).loc main_arg3) (ix2 (rowOf t r) j) := by
  unfold iblk
  rw [View.read_apply]
  show V m c main_arg3 _ = m ((c : Thread nD τ).loc main_arg3) _
  refine congrArg (V m c main_arg3) (funext fun a => Fin.ext ?_)
  match a with
  | ⟨0, _⟩ =>
    show win0_3.index t 0 * 2048 + 1 * r.val = 2048 * t.val + r.val
    rw [(index3 t).1]; omega
  | ⟨1, _⟩ =>
    show win0_3.index t 1 * 256 + 1 * j.val = j.val
    rw [(index3 t).2]; omega

/-- Window 4's block at point `t`, at `(r, j)`: the array's entry at row `2048 * t + r`, column `j`. -/
theorem block4_apply (c : Dev nD) (t : Fin cfg0.N) (r : Fin 2048) (j : Fin 256) :
    (iblk m c 4 t : Vec F S2048x256 .f32) (ix2 r j) = m ((c : Thread nD τ).loc main_arg4) (ix2 (rowOf t r) j) := by
  unfold iblk
  rw [View.read_apply]
  show V m c main_arg4 _ = m ((c : Thread nD τ).loc main_arg4) _
  refine congrArg (V m c main_arg4) (funext fun a => Fin.ext ?_)
  match a with
  | ⟨0, _⟩ =>
    show win0_4.index t 0 * 2048 + 1 * r.val = 2048 * t.val + r.val
    rw [(index4 t).1]; omega
  | ⟨1, _⟩ =>
    show win0_4.index t 1 * 256 + 1 * j.val = j.val
    rw [(index4 t).2]; omega

end Cert.KernelIdeal.Blocks

end
-- ==== Proof.LibBlockSum.lean ====
/-
  GENERAL LEMMAS (Mathlib only; no program is imported).

  A sum over the first `n * b` naturals taken block by block: the index is `b * s + k` with `s < n` the block and
  `k < b` the place inside it. Only commutativity and associativity of `+` are used, so the law holds in every
  commutative additive monoid, the extended reals (with their two infinities) included. It is what joins a
  contraction accumulated in `n` blocks of `b` places with the same contraction taken whole.
-/
import Mathlib.Algebra.BigOperators.Fin

namespace Cert.BlockSum

open Finset

/-- `∑_{s < n} ∑_{k < b} f (b·s + k) = ∑_{K < n·b} f K`: by induction on the number of blocks, the last block split off
    the end of the range. -/
theorem sum_range_blocks {M : Type*} [AddCommMonoid M] (b : ℕ) (f : ℕ → M) :
    ∀ n : ℕ, ∑ s ∈ range n, ∑ k ∈ range b, f (b * s + k) = ∑ K ∈ range (n * b), f K
  | 0 => by simp
  | n + 1 => by
    rw [sum_range_succ, sum_range_blocks b f n, Nat.succ_mul, sum_range_add, Nat.mul_comm b n]

/-- A sum over `Fin n` of a function of the index's value is the sum over the first `n` naturals. -/
theorem sum_fin_eq_range {M : Type*} [AddCommMonoid M] (n : ℕ) (f : ℕ → M) :
    ∑ k : Fin n, f k.val = ∑ k ∈ range n, f k :=
  Fin.sum_univ_eq_sum_range f n

end Cert.BlockSum
-- ==== Proof.KernelValue.lean ====
/-
  The kernel's accumulator is the sum of the rows' divergences, and its output their mean.

  One half of row r's value at grid point t is the divergence of row 2048 * t + r of the arrays (the block is that
  stretch of rows). So the accumulator after point n is the sum over the points s <= n, and within each over the 2048
  rows k of the block, of the divergence of row 2048 * s + k: the zero word plus the first block's sum at point 0, one
  more block's sum at each later point. After the last of the 32 points this sum taken block by block is the sum over
  all 65536 rows, since addition of extended reals is commutative and associative; divided by 65536 it is the mean.
-/
import proofs.«111889_j85968065397106_1_alg».proof.Proof.KernelFold
import proofs.«111889_j85968065397106_1_alg».proof.Proof.KernelPayload
import proofs.«111889_j85968065397106_1_alg».proof.Proof.KernelBlocks
import proofs.«111889_j85968065397106_1_alg».proof.Proof.LibBlockSum

noncomputable section

open scoped BigOperators

open Idealize.ShloMosaic Idealize.ShloMosaic.TcCoe Idealize.SL.Sem Idealize.ShloMosaic.ValueIdx

namespace Cert.KernelIdeal.Mean

open Cert.KernelIdeal Cert.KernelIdeal.Gen Cert.KernelIdeal.Fold Cert.KernelIdeal.Payload Cert.KernelIdeal.Blocks Cert.KlSpec

variable (m : (ℓ : Loc nD τ sig) → Buf (Elt Ideal) ℓ)

/-- The five argument arrays as core `c` holds them at launch. -/
abbrev A0 (c : Dev nD) : Arr := m ((c : Thread nD τ).loc main_arg0)
abbrev A1 (c : Dev nD) : Arr := m ((c : Thread nD τ).loc main_arg1)
abbrev A2 (c : Dev nD) : Arr := m ((c : Thread nD τ).loc main_arg2)
abbrev A3 (c : Dev nD) : Arr := m ((c : Thread nD τ).loc main_arg3)
abbrev A4 (c : Dev nD) : Arr := m ((c : Thread nD τ).loc main_arg4)

/-- Row `K`'s divergence, for every natural `K` (0 past the last row). -/
def rowAt (c : Dev nD) (K : ℕ) : EReal :=
  if h : K < 65536 then rowKl (A0 m c) (A1 m c) (A2 m c) (A3 m c) (A4 m c) ⟨K, h⟩ else 0

theorem quad_congr {a a' b b' d d' e e' : EReal} (ha : a = a') (hb : b = b') (hd : d = d') (he : e = e') :
    quad a b d e = quad a' b' d' e' := by subst ha hb hd he; rfl

/-- One half of the value of row `r` at point `t` is the divergence of row `2048 * t + r`. -/
theorem half_rows (c : Dev nD) (t : Fin cfg0.N) (r : Fin 2048) :
    Ideal.ofBits .f32 0x3F000000#32 * rows m c t (ix2 r (0 : Fin 1)) = rowAt m c (2048 * t.val + r.val) := by
  have hlt : 2048 * t.val + r.val < 65536 := (rowOf t r).isLt
  unfold rowAt
  rw [dif_pos hlt]
  unfold rows rowKl
  refine congrArg (Ideal.ofBits .f32 0x3F000000#32 * ·) ?_
  refine (rows_apply (iblk m c 0 t) (iblk m c 1 t) (iblk m c 2 t) (iblk m c 3 t) (iblk m c 4 t) r).trans ?_
  refine congrArg₂ (· + ·) (congrArg₂ (· + ·) (congrArg (· - _) ?_) ?_) ?_
  · exact Finset.sum_congr rfl fun j _ => congrArg₂ logRatio (block2_apply m c t r j) (block3_apply m c t r j)
  · exact Finset.sum_congr rfl fun j _ => congrArg₂ Ideal.div (block2_apply m c t r j) (block3_apply m c t r j)
  · exact Finset.sum_congr rfl fun j _ =>
      quad_congr (block0_apply m c t r j) (block1_apply m c t r j) (block3_apply m c t r j) (block4_apply m c t r j)

/-- The accumulator after point `n`: the divergences of the rows of blocks 0 to `n`, summed block by block. -/
theorem acc_apply (c : Dev nD) : ∀ (n : ℕ) (h : n < cfg0.N),
    acc m c n h (ix2 (0 : Fin 1) (0 : Fin 1))
      = ∑ s ∈ Finset.range (n + 1), ∑ k ∈ Finset.range 2048, rowAt m c (2048 * s + k)
  | 0, h => by
    show k0_pay1 (rows m c ⟨0, h⟩) (k0_pay3 (F := Ideal)) (ix2 (0 : Fin 1) (0 : Fin 1)) = _
    rw [partial_apply, reset_apply, zero_add, Finset.sum_range_one,
      ← Cert.BlockSum.sum_fin_eq_range 2048 (fun k => rowAt m c (2048 * 0 + k))]
    exact Finset.sum_congr rfl fun r _ => half_rows m c ⟨0, h⟩ r
  | n + 1, h => by
    show k0_pay1 (rows m c ⟨n + 1, h⟩) (acc m c n (Nat.lt_of_succ_lt h)) (ix2 (0 : Fin 1) (0 : Fin 1)) = _
    rw [partial_apply, acc_apply c n, Finset.sum_range_succ _ (n + 1)]
    refine congrArg (_ + ·) ?_
    rw [← Cert.BlockSum.sum_fin_eq_range 2048 (fun k => rowAt m c (2048 * (n + 1) + k))]
    exact Finset.sum_congr rfl fun r _ => half_rows m c ⟨n + 1, h⟩ r

/-- The one entry of the block the last point writes back is the mean divergence. -/
theorem out_apply (c : Dev nD) (h : 31 < cfg0.N) (y : S1x1.Idx) :
    (outsAt0 m c 31 h).1 y = meanKl (A0 m c) (A1 m c) (A2 m c) (A3 m c) (A4 m c) := by
  obtain rfl : y = ix2 (0 : Fin 1) (0 : Fin 1) :=
    (eq_ix2 y).trans (congrArg₂ ix2
      (Fin.ext (by have h := idx2_lt0 y; show (y 0).val = 0; omega))
      (Fin.ext (by have h := idx2_lt1 y; show (y 1).val = 0; omega)))
  rw [out_eq, mean_apply, acc_apply]
  unfold meanKl
  refine congrArg (Ideal.div · _) ?_
  rw [show (31 + 1 : ℕ) = 32 from rfl, Cert.BlockSum.sum_range_blocks 2048 (rowAt m c) 32,
    show (32 * 2048 : ℕ) = 65536 from rfl, ← Cert.BlockSum.sum_fin_eq_range 65536 (rowAt m c)]
  exact Finset.sum_congr rfl fun R _ => dif_pos R.isLt

end Cert.KernelIdeal.Mean

end
-- ==== Proof.KernelRun.lean ====
/-
  The kernel's run, read: its scalar result is the mean divergence of the argument arrays.

  The 1 x 1 output array is written back once, after the last grid point, by a block that is the whole array; what is
  written is the mean (every entry of that one block). The line after the kernel call reshapes the 1 x 1 array to a
  scalar, which keeps its one entry. The five argument arrays are never written.
-/
import proofs.«111889_j85968065397106_1_alg».proof.Proof.KernelValue
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Mean

open Cert.KernelIdeal Cert.KernelIdeal.Gen Cert.KlSpec Idealize.ShloMosaic.StableHlo

variable (m : (ℓ : Loc nD τ sig) → Buf (Elt Ideal) ℓ) (ρ : Dev nD → PrngReg)

/-- The mean divergence of core `c`'s argument arrays. -/
def mean (c : Dev nD) : EReal := meanKl (A0 m c) (A1 m c) (A2 m c) (A3 m c) (A4 m c)

/-- The 1 x 1 output array holding the mean. -/
abbrev result (c : Dev nD) : Buf (Elt Ideal) ((c : Thread nD τ).loc main_v0) := fun _ => mean m c

/-- The last grid point. -/
abbrev tLast : Fin cfg0.N := ⟨31, by rw [show cfg0.N = 32 from N_0]; decide⟩

/-- What the last point leaves in the output's staging buffer is that array's contents. -/
theorem last_eq (c : Dev nD) : (outsAt0 m c tLast.val tLast.isLt).1 = fun _ => mean m c :=
  funext fun y => out_apply m c tLast.isLt y

/-- The one write-back, at the last point, writes the mean: the block at index (0, 0) of the 1 x 1 array is the array. -/
theorem flushed_eq (c : Dev nD) (t : Fin cfg0.N) (hf : (cfg0.win 5).flush t = true) :
    (dats m 0 c).flushed 5 t = ((cfg0.win 5).blk t).view.read (Elt Ideal) (result m c) := by
  have hN : cfg0.N = 32 := N_0
  have h31 : t.val = 31 := by have := (flush0_5 t).mp hf; have := t.isLt; omega
  obtain rfl : t = tLast := Fin.ext h31
  show (cfg0.win 5).cut (grid0.coords tLast) ((dats m 0 c).after 5 tLast) = _
  rw [after0_5, last_eq]
  have hz' : (fun a => win0_5.index tLast a * main_v0.ty.shape.size a) = fun _ => 0 := funext fun a => by fin_cases a <;> decide
  exact (Memref.read_access_unit_zero (Elt Ideal) main_v0 hz' (fun a => by rw [congrFun hz' a]; simp) (result m c)).symm

/-- So the output array ends holding the mean: the last point's block covers it. -/
theorem final (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v0).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The scalar the reshape after the kernel call leaves: the array's one entry. -/
theorem tail_eq (c : Dev nD) :
    Pipeline.afterTail₀ cfgs (dats m) 0 (V0 m) [hostOps1] c main_v1 = fun _ => mean m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c :=
    (Pipeline.withArrays_arr spec0 winFacts0.arr_inj c _ _ 5).trans (final m c)
  rw [e]
  rfl

/-- THE KERNEL'S RUN: every weakly fair execution terminates with the scalar result at the mean divergence of the
    argument arrays, and the arguments unchanged. -/
theorem run : θ_run defs (onTc (τ := τ) (main (F := Ideal))) ⟨m, fun _ => 0, ρ⟩ fun r => ∀ c : Dev nD,
      r.2.mem ((c.tc : Thread nD τ).loc main_v1) = (fun _ => mean m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Mean

end
-- ==== Proof.RefRun.lean ====
/-
  The reference program's run. Its @main is a straight line of host operations once the three nested helper
  functions (the not-a-number replacement and the two conditional selections it calls) are unfolded at their call
  sites: forty-three operations, each writing one buffer of its own from buffers written earlier or from the five
  arguments. Running them in order from any memory therefore leaves, in the result buffer, one closed term of the five
  arguments' launch contents (refTerm below), and leaves the arguments as they were.
-/
import proofs.«111889_j85968065397106_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the helper functions unfolded where they are called. The first is the scalar zero
    the replacement takes. The next sixteen are the replacement of the first argument: the test "differs from itself",
    the zero converted to its own type and spread over the array, the selection of zero where the test holds; then
    plus infinity spread, the test "equals plus infinity", the largest finite number spread and selected there; then
    the same for minus infinity and the smallest finite number. The remaining twenty-six are @main's own: the masked
    difference of the means, the difference of the logarithms and its row sums, the quotient of the variances and its
    row sums, the squared masked difference over the second variance and its row sums, the three row sums combined
    with the constant 256 and halved, the sum over the rows and its division by the number of rows. -/
abbrev ops : List (HloOp τ sig (Elt F)) :=
  [ nullary main_cst (constant S_ .f32 0x00000000#32),
    TRef.binary (.of main_arg0) (.of main_arg0) main_call0.v0 (cmpf .une),
    TRef.unary (.of main_cst) main_call0.v1 id,
    TRef.unary main_call0.v1 main_call0.call0.v0 (broadcastInDim S65536x256 ![] bcast_S_S65536x256),
    TRef.ternary main_call0.v0 main_call0.call0.v0 (.of main_arg0) main_call0.call0.v1 select,
    TRef.nullary main_call0.cst (constant S_ .f32 0x7F800000#32),
    TRef.unary main_call0.cst main_call0.v3 (broadcastInDim S65536x256 ![] bcast_S_S65536x256),
    TRef.binary main_call0.call0.v1 main_call0.v3 main_call0.v4 (cmpf .oeq),
    TRef.nullary main_call0.cst_0 (constant S_ .f32 0x7F7FFFFF#32),
    TRef.unary main_call0.cst_0 main_call0.call1.v0 (broadcastInDim S65536x256 ![] bcast_S_S65536x256),
    TRef.ternary main_call0.v4 main_call0.call1.v0 main_call0.call0.v1 main_call0.call1.v1 select,
    TRef.nullary main_call0.cst_1 (constant S_ .f32 0xFF800000#32),
    TRef.unary main_call0.cst_1 main_call0.v6 (broadcastInDim S65536x256 ![] bcast_S_S65536x256),
    TRef.binary main_call0.call1.v1 main_call0.v6 main_call0.v7 (cmpf .oeq),
    TRef.nullary main_call0.cst_2 (constant S_ .f32 0xFF7FFFFF#32),
    TRef.unary main_call0.cst_2 main_call0.call2.v0 (broadcastInDim S65536x256 ![] bcast_S_S65536x256),
    TRef.ternary main_call0.v7 main_call0.call2.v0 main_call0.call1.v1 main_call0.call2.v1 select,
    binary main_arg1 main_v0 main_v1 (subf : (⟨S65536x256, .f32⟩ : BufTy).Contents (Elt F) → (⟨S65536x256, .f32⟩ : BufTy).Contents (Elt F) → (⟨S65536x256, .f32⟩ : BufTy).Contents (Elt F)),
    binary main_arg4 main_v1 main_v2 (mulf : (⟨S65536x256, .f32⟩ : BufTy).Contents (Elt F) → (⟨S65536x256, .f32⟩ : BufTy).Contents (Elt F) → (⟨S65536x256, .f32⟩ : BufTy).Contents (Elt F)),
    unary main_arg3 main_v3 (Host.log : (⟨S65536x256, .f32⟩ : BufTy).Contents (Elt F) → (⟨S65536x256, .f32⟩ : BufTy).Contents (Elt F)),
    unary main_arg2 main_v4 (Host.log : (⟨S65536x256, .f32⟩ : BufTy).Contents (Elt F) → (⟨S65536x256, .f32⟩ : BufTy).Contents (Elt F)),
    binary main_v3 main_v4 main_v5 (subf : (⟨S65536x256, .f32⟩ : BufTy).Contents (Elt F) → (⟨S65536x256, .f32⟩ : BufTy).Contents (Elt F) → (⟨S65536x256, .f32⟩ : BufTy).Contents (Elt F)),
    nullary main_cst_0 (constant S_ .f32 0x00000000#32),
    binary main_v5 main_cst_0 main_v6 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    binary main_arg2 main_arg3 main_v7 (Host.divf : (⟨S65536x256, .f32⟩ : BufTy).Contents (Elt F) → (⟨S65536x256, .f32⟩ : BufTy).Contents (Elt F) → (⟨S65536x256, .f32⟩ : BufTy).Contents (Elt F)),
    nullary main_cst_1 (constant S_ .f32 0x00000000#32),
    binary main_v7 main_cst_1 main_v8 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    binary main_v2 main_v2 main_v9 (mulf : (⟨S65536x256, .f32⟩ : BufTy).Contents (Elt F) → (⟨S65536x256, .f32⟩ : BufTy).Contents (Elt F) → (⟨S65536x256, .f32⟩ : BufTy).Contents (Elt F)),
    binary main_v9 main_arg3 main_v10 (Host.divf : (⟨S65536x256, .f32⟩ : BufTy).Contents (Elt F) → (⟨S65536x256, .f32⟩ : BufTy).Contents (Elt F) → (⟨S65536x256, .f32⟩ : BufTy).Contents (Elt F)),
    nullary main_cst_2 (constant S_ .f32 0x00000000#32),
    binary main_v10 main_cst_2 main_v11 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    nullary main_cst_3 (constant S_ .f32 0x43800000#32),
    unary main_cst_3 main_v12 (broadcastInDim S65536 ![] bcast_S_S65536 : (⟨S_, .f32⟩ : BufTy).Contents (Elt F) → (⟨S65536, .f32⟩ : BufTy).Contents (Elt F)),
    binary main_v6 main_v12 main_v13 (subf : (⟨S65536, .f32⟩ : BufTy).Contents (Elt F) → (⟨S65536, .f32⟩ : BufTy).Contents (Elt F) → (⟨S65536, .f32⟩ : BufTy).Contents (Elt F)),
    binary main_v13 main_v8 main_v14 (addf : (⟨S65536, .f32⟩ : BufTy).Contents (Elt F) → (⟨S65536, .f32⟩ : BufTy).Contents (Elt F) → (⟨S65536, .f32⟩ : BufTy).Contents (Elt F)),
    binary main_v14 main_v11 main_v15 (addf : (⟨S65536, .f32⟩ : BufTy).Contents (Elt F) → (⟨S65536, .f32⟩ : BufTy).Contents (Elt F) → (⟨S65536, .f32⟩ : BufTy).Contents (Elt F)),
    nullary main_cst_4 (constant S_ .f32 0x3F000000#32),
    unary main_cst_4 main_v16 (broadcastInDim S65536 ![] bcast_S_S65536 : (⟨S_, .f32⟩ : BufTy).Contents (Elt F) → (⟨S65536, .f32⟩ : BufTy).Contents (Elt F)),
    binary main_v16 main_v15 main_v17 (mulf : (⟨S65536, .f32⟩ : BufTy).Contents (Elt F) → (⟨S65536, .f32⟩ : BufTy).Contents (Elt F) → (⟨S65536, .f32⟩ : BufTy).Contents (Elt F)),
    nullary main_cst_5 (constant S_ .f32 0x00000000#32),
    binary main_v17 main_cst_5 main_v18 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_6 (constant S_ .f32 0x47800000#32),
    binary main_v18 main_cst_6 main_v19 (Host.divf : (⟨S_, .f32⟩ : BufTy).Contents (Elt F) → (⟨S_, .f32⟩ : BufTy).Contents (Elt F) → (⟨S_, .f32⟩ : BufTy).Contents (Elt F)) ]

-- forty-three binds re-associated: the rewrite under the chain recurses once per statement
set_option maxRecDepth 4096 in
/-- @main is that straight line: with the three helper functions' definitions unfolded at their calls and sequencing
    re-associated, both sides are one chain of the same steps. -/
theorem main_eq (c : Dev nD) : main (F := F) c = seq ops := by
  simp only [main, fn_nan_to_num.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches only buffers of the tensor unit's own table. -/
theorem ops_sub : (ops : List (HloOp τ sig (Elt F))).Forall fun op => op.bufs ⊆ tcRefs τ sig :=
  ⟨nullary_bufs_sub .., binary_bufs_sub .., unary_bufs_sub .., unary_bufs_sub .., ternary_bufs_sub .., nullary_bufs_sub ..,
    unary_bufs_sub .., binary_bufs_sub .., nullary_bufs_sub .., unary_bufs_sub .., ternary_bufs_sub .., nullary_bufs_sub ..,
    unary_bufs_sub .., binary_bufs_sub .., nullary_bufs_sub .., unary_bufs_sub .., ternary_bufs_sub .., binary_bufs_sub ..,
    binary_bufs_sub .., unary_bufs_sub .., unary_bufs_sub .., binary_bufs_sub .., nullary_bufs_sub .., binary_bufs_sub ..,
    binary_bufs_sub .., nullary_bufs_sub .., binary_bufs_sub .., binary_bufs_sub .., binary_bufs_sub .., nullary_bufs_sub ..,
    binary_bufs_sub .., nullary_bufs_sub .., unary_bufs_sub .., binary_bufs_sub .., binary_bufs_sub .., binary_bufs_sub ..,
    nullary_bufs_sub .., unary_bufs_sub .., binary_bufs_sub .., nullary_bufs_sub .., binary_bufs_sub .., nullary_bufs_sub ..,
    binary_bufs_sub ..⟩

/-! ## The composed term -/

/-- The first argument with its exceptional entries replaced, as the program spells it: zero where an entry differs
    from itself, then the largest finite number where the outcome equals plus infinity, then the smallest finite number
    where that outcome equals minus infinity. -/
def clipTerm (a0 : FVec F S65536x256 .f32) : FVec F S65536x256 .f32 :=
  select
    (cmpf .oeq
      (select (cmpf .oeq (select (cmpf .une a0 a0) (broadcastInDim S65536x256 ![] bcast_S_S65536x256 (id (constant S_ .f32 0x00000000#32))) a0) (broadcastInDim S65536x256 ![] bcast_S_S65536x256 (constant S_ .f32 0x7F800000#32)))
        (broadcastInDim S65536x256 ![] bcast_S_S65536x256 (constant S_ .f32 0x7F7FFFFF#32)) (select (cmpf .une a0 a0) (broadcastInDim S65536x256 ![] bcast_S_S65536x256 (id (constant S_ .f32 0x00000000#32))) a0))
      (broadcastInDim S65536x256 ![] bcast_S_S65536x256 (constant S_ .f32 0xFF800000#32)))
    (broadcastInDim S65536x256 ![] bcast_S_S65536x256 (constant S_ .f32 0xFF7FFFFF#32))
    (select (cmpf .oeq (select (cmpf .une a0 a0) (broadcastInDim S65536x256 ![] bcast_S_S65536x256 (id (constant S_ .f32 0x00000000#32))) a0) (broadcastInDim S65536x256 ![] bcast_S_S65536x256 (constant S_ .f32 0x7F800000#32)))
      (broadcastInDim S65536x256 ![] bcast_S_S65536x256 (constant S_ .f32 0x7F7FFFFF#32)) (select (cmpf .une a0 a0) (broadcastInDim S65536x256 ![] bcast_S_S65536x256 (id (constant S_ .f32 0x00000000#32))) a0))

/-- The masked difference of the means: the mask times (second mean minus the replaced first mean). -/
def wdiffTerm (a0 a1 a4 : FVec F S65536x256 .f32) : FVec F S65536x256 .f32 := mulf a4 (subf a1 (clipTerm a0))

/-- One number per row: half of (row sum of the logarithms' difference, minus 256, plus the row sum of the variances'
    quotient, plus the row sum of the squared masked difference over the second variance). -/
def rowTerm (a0 a1 a2 a3 a4 : FVec F S65536x256 .f32) : FVec F S65536 .f32 :=
  mulf (broadcastInDim S65536 ![] bcast_S_S65536 (constant S_ .f32 0x3F000000#32))
    (addf
      (addf
        (subf (Host.reduceAdd (subf (Host.log a3) (Host.log a2)) (constant S_ .f32 0x00000000#32) reducesTo_S65536x256_S65536_d1 h_S_)
          (broadcastInDim S65536 ![] bcast_S_S65536 (constant S_ .f32 0x43800000#32)))
        (Host.reduceAdd (Host.divf a2 a3) (constant S_ .f32 0x00000000#32) reducesTo_S65536x256_S65536_d1 h_S_))
      (Host.reduceAdd (Host.divf (mulf (wdiffTerm a0 a1 a4) (wdiffTerm a0 a1 a4)) a3) (constant S_ .f32 0x00000000#32) reducesTo_S65536x256_S65536_d1 h_S_))

/-- What @main leaves in its result buffer, as a function of the five arguments' contents: the sum of the rows' numbers
    divided by 65536. -/
def refTerm (a0 a1 a2 a3 a4 : FVec F S65536x256 .f32) : FVec F S_ .f32 :=
  Host.divf (Host.reduceAdd (rowTerm a0 a1 a2 a3 a4) (constant S_ .f32 0x00000000#32) reducesTo_S65536_S_d0 h_S_) (constant S_ .f32 0x47800000#32)

/-! ## The fold at the result and at the arguments -/

attribute [local irreducible] Host.reduceAdd Host.log Host.divf in
set_option maxRecDepth 8192 in
/-- Unrolling the operations one by one, each buffer read is either the operation's own result — its function of the
    buffers it reads — or untouched; at the result buffer what is left is the composed term. -/
theorem out_eq (V : Valuation τ sig (Elt F)) :
    after ops V (main_v19 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument's buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp

/-! ## The run -/

/-- On every device, for any float values, from any memory with zero counters: every weakly fair execution of @main
    terminates with the result buffer at the composed term of the five arguments' launch contents, and the arguments
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v19).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.RefSide

end
-- ==== Proof.RefValue.lean ====
/-
  The reference program's result is the specified mean divergence. At the ideal values the composed term the run
  leaves in the result buffer is read entry by entry: a pointwise operation at an index is the scalar operation on
  the entries there; a spread scalar is that scalar everywhere; a host sum along the columns, started from the zero
  word, is the finite sum over the row's 256 entries; the host sum over all rows, started from zero, is the finite sum
  over the 65536 rows. Put together, row by row, this is the specification's expression.
-/
import proofs.«111889_j85968065397106_1_alg».proof.Proof.Spec
import proofs.«111889_j85968065397106_1_alg».proof.Proof.RefRun
import proofs.«111889_j85968065397106_1_alg».proof.Proof.LibSums
import Idealize.ShloMosaic.PureOps.Ideal.Laws
import Idealize.ShloMosaic.Lib.ValueIdx

noncomputable section

open scoped BigOperators

namespace Cert.RefSide

open Cert.ReferenceIdeal Cert.ReferenceIdeal.Gen Idealize.ShloMosaic Idealize.ShloMosaic.ValueIdx Idealize.ShloMosaic.TcCoe
  Idealize.SL.Sem Idealize.ShloMosaic.StableHlo Cert.Sums

/-! ## The composed term, entry by entry -/

/-- The replaced first mean at an index is the specification's replacement of the entry there: the three selections
    are pointwise, and each spread constant reads its own word everywhere. -/
theorem clipTerm_apply (a0 : FVec Ideal S65536x256 .f32) (i : S65536x256.Idx) :
    clipTerm (F := Ideal) a0 i = Cert.KlSpec.clip (a0 i) := rfl

/-- The masked difference of the means at an index. -/
theorem wdiffTerm_apply (a0 a1 a4 : FVec Ideal S65536x256 .f32) (i : S65536x256.Idx) :
    wdiffTerm (F := Ideal) a0 a1 a4 i = Cert.KlSpec.wdiff (a0 i) (a1 i) (a4 i) := rfl

/-- The zero word the host sums start from is the number zero. -/
theorem zero_first (hu : 0 < S_.numel) : constant (F := Ideal) S_ .f32 0x00000000#32 (Shape.Idx.first hu) = 0 :=
  Ideal.ofBits_zero_f32

/-- Row r's number is the specification's row divergence: the three row sums are the three finite sums over the
    row, whose summands agree entry by entry. -/
theorem rowTerm_apply (a0 a1 a2 a3 a4 : FVec Ideal S65536x256 .f32) (r : Fin 65536) :
    rowTerm (F := Ideal) a0 a1 a2 a3 a4 (ix1 r) = Cert.KlSpec.rowKl a0 a1 a2 a3 a4 r := by
  have hR : S65536x256.Reduces [1] S65536 := by decide
  have s1 := hostRowSum_apply (subf (Host.log a3) (Host.log a2)) (constant (F := Ideal) S_ .f32 0x00000000#32)
    reducesTo_S65536x256_S65536_d1 hR h_S_ (zero_first h_S_) r
  have s2 := hostRowSum_apply (Host.divf a2 a3) (constant (F := Ideal) S_ .f32 0x00000000#32)
    reducesTo_S65536x256_S65536_d1 hR h_S_ (zero_first h_S_) r
  have s3 := hostRowSum_apply (Host.divf (mulf (wdiffTerm a0 a1 a4) (wdiffTerm a0 a1 a4)) a3) (constant (F := Ideal) S_ .f32 0x00000000#32)
    reducesTo_S65536x256_S65536_d1 hR h_S_ (zero_first h_S_) r
  show Ideal.ofBits .f32 0x3F000000#32 *
      (((Host.reduceAdd (subf (Host.log a3) (Host.log a2)) (constant (F := Ideal) S_ .f32 0x00000000#32) reducesTo_S65536x256_S65536_d1 h_S_ (ix1 r)
            - Ideal.ofBits .f32 0x43800000#32)
          + Host.reduceAdd (Host.divf a2 a3) (constant (F := Ideal) S_ .f32 0x00000000#32) reducesTo_S65536x256_S65536_d1 h_S_ (ix1 r))
        + Host.reduceAdd (Host.divf (mulf (wdiffTerm a0 a1 a4) (wdiffTerm a0 a1 a4)) a3) (constant (F := Ideal) S_ .f32 0x00000000#32)
            reducesTo_S65536x256_S65536_d1 h_S_ (ix1 r)) = _
  rw [s1, s2, s3]
  rfl

/-- THE REFERENCE'S VALUE: the composed term is, at its one index, the specified mean divergence of the five arrays. -/
theorem refTerm_eq (a0 a1 a2 a3 a4 : FVec Ideal Cert.ReferenceIdeal.S65536x256 .f32) :
    refTerm (F := Ideal) a0 a1 a2 a3 a4 = fun _ => Cert.KlSpec.meanKl a0 a1 a2 a3 a4 := by
  funext j
  show Ideal.div (Host.reduceAdd (rowTerm (F := Ideal) a0 a1 a2 a3 a4) (constant (F := Ideal) S_ .f32 0x00000000#32) reducesTo_S65536_S_d0 h_S_ j)
      (Ideal.ofBits .f32 0x47800000#32) = Cert.KlSpec.meanKl a0 a1 a2 a3 a4
  unfold Cert.KlSpec.meanKl
  refine congrArg (fun s => Ideal.div s (Ideal.ofBits .f32 0x47800000#32)) ?_
  refine (hostTotalSum_apply (rowTerm (F := Ideal) a0 a1 a2 a3 a4) (constant (F := Ideal) S_ .f32 0x00000000#32)
    reducesTo_S65536_S_d0 h_S_ (zero_first h_S_) j).trans ?_
  exact Finset.sum_congr rfl fun r _ => rowTerm_apply a0 a1 a2 a3 a4 r

/-! ## The run, at the specification -/

/-- At the ideal values, from any memory with zero counters: every weakly fair execution of the reference's @main
    terminates with its result buffer holding the specified mean divergence of the five arguments' launch contents,
    and the five arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v19) = (fun _ => Cert.KlSpec.meanKl (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  (θ_run _ _ _).mono (fun _ h c => ⟨((h c).1).trans (refTerm_eq _ _ _ _ _), (h c).2⟩) (run_term (F := Ideal) m ρ)

end Cert.RefSide

end
-- ==== Proof.lean ====
/- The mean Kullback-Leibler divergence between two families of diagonal Gaussians, computed two ways.

   Inputs: means mu1, mu2, diagonal covariances s1, s2 and a mask, each 65536 rows of 256 entries. Row r contributes
       kl r = 1/2 * ( sum_j (log s2 - log s1) - 256 + sum_j s1 / s2 + sum_j (mask * (mu2 - clip mu1))^2 / s2 )
   and the result is (sum_r kl r) / 65536, where clip replaces an infinite entry by the largest or smallest finite
   number. The kernel walks the rows in 32 blocks of 2048, adds each block's sum of kl into a 1 x 1 accumulator
   that starts at zero, and divides by 65536 after the last block; the reference forms kl for all rows, sums them
   in one reduction and divides. Over the extended reals the two agree because a sum taken block by block is the
   whole sum (addition is commutative and associative, infinities included); every other operation is the same
   function of the same entries on both sides, so nothing is asked of the inputs.

   The three frames come from the programs' runs (the reference's frame is its value run with the result dropped),
   the idealization rewrote nothing, and the value claim pairs the kernel's run with the reference's at the one
   specified mean (Proof/Spec.lean). -/
import proofs.«111889_j85968065397106_1_alg».proof.Defs
import proofs.«111889_j85968065397106_1_alg».proof.Proof.Gen.Kernel
import proofs.«111889_j85968065397106_1_alg».proof.Proof.Gen.Kernel.Skeleton
import proofs.«111889_j85968065397106_1_alg».proof.Proof.Gen.Kernel.Launch
import proofs.«111889_j85968065397106_1_alg».proof.Proof.Gen.Kernel.Points
import proofs.«111889_j85968065397106_1_alg».proof.Proof.Gen.Kernel.Frame
import proofs.«111889_j85968065397106_1_alg».proof.Proof.Gen.KernelIdeal
import proofs.«111889_j85968065397106_1_alg».proof.Proof.Gen.KernelIdeal.Skeleton
import proofs.«111889_j85968065397106_1_alg».proof.Proof.Gen.KernelIdeal.Launch
import proofs.«111889_j85968065397106_1_alg».proof.Proof.Gen.KernelIdeal.Points
import proofs.«111889_j85968065397106_1_alg».proof.Proof.Gen.KernelIdeal.Frame
import proofs.«111889_j85968065397106_1_alg».proof.Proof.Gen.ReferenceIdeal
import proofs.«111889_j85968065397106_1_alg».proof.Proof.Gen.Pre_finite_inputs
import proofs.«111889_j85968065397106_1_alg».proof.Proof.KernelRun
import proofs.«111889_j85968065397106_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its value run, the result dropped. -/
theorem frame_ri : Cert.frame_ReferenceIdeal := fun m ρ _ =>
  (θ_run Cert.ReferenceIdeal.defs _ _).mono (fun _ h c => (h c).2) (Cert.RefSide.run m ρ)

/-- No operation was rewritten on the way to the idealized kernel. -/
theorem preserves : Cert.preserves_Kernel_KernelIdeal := trivial

/-- Both programs end with the mean divergence of the (agreeing) argument arrays. -/
theorem algebraic : Cert.algebraic_KernelIdeal_ReferenceIdeal := by
  intro m ρ m' ρ' _ hagree
  refine ⟨fun c _ => Cert.KernelIdeal.Mean.mean m c, Cert.KernelIdeal.Mean.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
